-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S_ : Shape := ⟨0, ![]⟩

class Facts : Prop where
  bcast_S_S8x49x128x128 : S_.BroadcastsInDim S8x49x128x128 (![] : Fin 0 → Fin S8x49x128x128.rank)
  reducesTo_S8x49x128x128_S_d0_1_2_3 : S8x49x128x128.ReducesTo [0, 1, 2, 3] S_
  h_S_ : 0 < S_.numel
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  bcast_S_S8x64x128 : S_.BroadcastsInDim S8x64x128 (![] : Fin 0 → Fin S8x64x128.rank)
  reducesTo_S8x64x128_S_d0_1_2 : S8x64x128.ReducesTo [0, 1, 2] S_

variable [Facts]

def fn {F : FTy → Type} [FloatOps F] (main_arg0 : FVec F S8x49x128x128 .f32) (main_arg1 : FVec F S8x128x128x64 .f32) (main_arg2 : FVec F S8x64x128 .f32) : IVec S_ 1 :=
  let main_v0 : FVec F S8x49x128x128 .f32 := Host.absf main_arg0
  let main_cst : FVec F S_ .f32 := constant S_ .f32 0x7F800000#32
  let main_v1 : FVec F S8x49x128x128 .f32 := broadcastInDim S8x49x128x128 ![] bcast_S_S8x49x128x128 main_cst
  let main_v2 : IVec S8x49x128x128 1 := cmpf .olt main_v0 main_v1
  let main_c : IVec S_ 1 := constantI S_ 1 1#1
  let main_v3 : IVec S_ 1 := (fun x v => Host.reduce IntOp.andi x v reducesTo_S8x49x128x128_S_d0_1_2_3 h_S_) main_v2 main_c
  let main_v4 : FVec F S8x128x128x64 .f32 := Host.absf main_arg1
  let main_cst_0 : FVec F S_ .f32 := constant S_ .f32 0x7F800000#32
  let main_v5 : FVec F S8x128x128x64 .f32 := broadcastInDim S8x128x128x64 ![] bcast_S_S8x128x128x64 main_cst_0
  let main_v6 : IVec S8x128x128x64 1 := cmpf .olt main_v4 main_v5
  let main_c_1 : IVec S_ 1 := constantI S_ 1 1#1
  let main_v7 : IVec S_ 1 := (fun x v => Host.reduce IntOp.andi x v reducesTo_S8x128x128x64_S_d0_1_2_3 h_S_) main_v6 main_c_1
  let main_v8 : IVec S_ 1 := andi main_v3 main_v7
  let main_v9 : FVec F S8x64x128 .f32 := Host.absf main_arg2
  let main_cst_2 : FVec F S_ .f32 := constant S_ .f32 0x7F800000#32
  let main_v10 : FVec F S8x64x128 .f32 := broadcastInDim S8x64x128 ![] bcast_S_S8x64x128 main_cst_2
  let main_v11 : IVec S8x64x128 1 := cmpf .olt main_v9 main_v10
  let main_c_3 : IVec S_ 1 := constantI S_ 1 1#1
  let main_v12 : IVec S_ 1 := (fun x v => Host.reduce IntOp.andi x v reducesTo_S8x64x128_S_d0_1_2 h_S_) main_v11 main_c_3
  let main_v13 : IVec S_ 1 := andi main_v8 main_v12
  main_v13
-- ==== Kernel.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S8x6272x128 : Shape := ⟨3, ![8, 6272, 128]⟩
abbrev S_ : Shape := ⟨0, ![]⟩
abbrev S128x64 : Shape := ⟨2, ![128, 64]⟩
abbrev S8x49x128x64 : Shape := ⟨4, ![8, 49, 128, 64]⟩
abbrev S1x6272x128 : Shape := ⟨3, ![1, 6272, 128]⟩
abbrev S1x64x128 : Shape := ⟨3, ![1, 64, 128]⟩
abbrev S1x49x128x64 : Shape := ⟨4, ![1, 49, 128, 64]⟩
abbrev S6272x128 : Shape := ⟨2, ![6272, 128]⟩
abbrev S6272x64 : Shape := ⟨2, ![6272, 64]⟩
abbrev S49x128x64 : Shape := ⟨3, ![49, 128, 64]⟩
abbrev S64x128 : Shape := ⟨2, ![64, 128]⟩
abbrev S1x128x64 : Shape := ⟨3, ![1, 128, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x49x128x128, .f32⟩
  | .hbm, ⟨1, _⟩ => ⟨S8x128x128x64, .f32⟩
  | .hbm, ⟨2, _⟩ => ⟨S8x64x128, .f32⟩
  | .hbm, ⟨3, _⟩ => ⟨S8x6272x128, .f32⟩
  | .hbm, ⟨4, _⟩ => ⟨S_, .bf16⟩
  | .hbm, ⟨5, _⟩ => ⟨S128x64, .bf16⟩
  | .hbm, ⟨6, _⟩ => ⟨S8x49x128x64, .f32⟩
  | .local _ .vmem, ⟨0, _⟩ => ⟨S1x6272x128, .f32⟩
  | .local _ .vmem, ⟨1, _⟩ => ⟨S1x6272x128, .f32⟩
  | .local _ .vmem, ⟨2, _⟩ => ⟨S128x64, .bf16⟩
  | .local _ .vmem, ⟨3, _⟩ => ⟨S1x64x128, .f32⟩
  | .local _ .vmem, ⟨4, _⟩ => ⟨S1x64x128, .f32⟩
  | .local _ .vmem, ⟨5, _⟩ => ⟨S1x49x128x64, .f32⟩
  | .local _ .vmem, ⟨6, _⟩ => ⟨S1x49x128x64, .f32⟩
  | _, _ => ⟨S8x49x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x6272x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x49x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x49x128x128_S8x6272x128 : S8x49x128x128.ShapeCasts S8x6272x128
  bcast_S_S128x64 : S_.BroadcastsInDim S128x64 (![] : Fin 0 → Fin S128x64.rank)
  inb_S1x6272x128_S1x6272x128_0_0_0 : ∀ a, (![0, 0, 0] : Fin 3 → Nat) a + S1x6272x128.size a ≤ S1x6272x128.size a
  h_S1x6272x128 : 0 < S1x6272x128.numel
  shapeCasts_S1x6272x128_S6272x128 : S1x6272x128.ShapeCasts S6272x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S6272x64_S49x128x64 : S6272x64.ShapeCasts S49x128x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  transposes_S64x128_p1_0_S128x64 : S64x128.Transposes [1, 0] S128x64
  shapeCasts_S128x64_S1x128x64 : S128x64.ShapeCasts S1x128x64
  broadcasts_S1x128x64_S49x128x64 : S1x128x64.Broadcasts S49x128x64
  inb_S1x49x128x64_S1x49x128x64_0_0_0_0 : ∀ a, (![0, 0, 0, 0] : Fin 4 → Nat) a + S1x49x128x64.size a ≤ S1x49x128x64.size a
  h_S1x49x128x64 : 0 < S1x49x128x64.numel
  shapeCasts_S1x49x128x64_S49x128x64 : S1x49x128x64.ShapeCasts S49x128x64
  shapeCasts_S49x128x64_S1x49x128x64 : S49x128x64.ShapeCasts S1x49x128x64
  dot_S6272x128_S128x64_S6272x64_1_0_0_1_n_n_wf : DotDims.WF S6272x128 S128x64 S6272x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6272x128.size a ≤ S8x6272x128.size a
  hwx0_0 : ∀ i : grid0.Coords, EltTy.bits .f32 = 32 ∨ (Rect.block (s := S8x6272x128) S1x6272x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S8x64x128.size a
  hwx0_2 : ∀ i : grid0.Coords, EltTy.bits .f32 = 32 ∨ (Rect.block (s := S8x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x49x128x64.size a ≤ S8x49x128x64.size a
  hwx0_3 : ∀ i : grid0.Coords, EltTy.bits .f32 = 32 ∨ (Rect.block (s := S8x49x128x64) S1x49x128x64.size (cc0_transform_3 i) (hinb0_3 i)).WholeWords (EltTy.packing .f32)

variable [Facts₀]

def dot_S6272x128_S128x64_S6272x64_1_0_0_1_n_n : DotDims S6272x128 S128x64 S6272x64 where
  lhsContracting := [1]
  rhsContracting := [0]
  lhsNonContracting := [0]
  rhsNonContracting := [1]
  lhsBatch := []
  rhsBatch := []
  wf := dot_S6272x128_S128x64_S6272x64_1_0_0_1_n_n_wf

abbrev win0_0 : Pipeline.Window sig grid0 :=
  Pipeline.Window.ofSpec (Memref.whole main_v0) S1x6272x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x49x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x49x128x128 : Shape := ⟨4, ![8, 49, 128, 128]⟩
abbrev S8x128x128x64 : Shape := ⟨4, ![8, 128, 128, 64]⟩
abbrev S8x64x128 : Shape := ⟨3, ![8, 64, 128]⟩
abbrev S_ : Shape := ⟨0, ![]⟩
abbrev S8x49x128 : Shape := ⟨3, ![8, 49, 128]⟩
abbrev S8x128x64 : Shape := ⟨3, ![8, 128, 64]⟩
abbrev S8x49x128x1 : Shape := ⟨4, ![8, 49, 128, 1]⟩
abbrev S8x1x128x64 : Shape := ⟨4, ![8, 1, 128, 64]⟩
abbrev S8x49x128x64 : Shape := ⟨4, ![8, 49, 128, 64]⟩

abbrev nBuf : Space → Nat
  | .hbm => 14
  | .vmem => 0
  | .smem => 0
  | _ => 0

abbrev bufTy : (tb : Table) → Fin (tcTables nBuf tb) → BufTy
  | .hbm, ⟨0, _⟩ => ⟨S8x49x128x128, .f32⟩
  | .hbm, ⟨1, _⟩ => ⟨S8x128x128x64, .f32⟩
  | .hbm, ⟨2, _⟩ => ⟨S8x64x128, .f32⟩
  | .hbm, ⟨3, _⟩ => ⟨S_, .f32⟩
  | .hbm, ⟨4, _⟩ => ⟨S8x49x128, .f32⟩
  | .hbm, ⟨5, _⟩ => ⟨S8x128x64, .f32⟩
  | .hbm, ⟨6, _⟩ => ⟨S_, .f32⟩
  | .hbm, ⟨7, _⟩ => ⟨S8x128x64, .f32⟩
  | .hbm, ⟨8, _⟩ => ⟨S8x128x64, .f32⟩
  | .hbm, ⟨9, _⟩ => ⟨S8x49x128x1, .f32⟩
  | .hbm, ⟨10, _⟩ => ⟨S8x1x128x64, .f32⟩
  | .hbm, ⟨11, _⟩ => ⟨S8x49x128x64, .f32⟩
  | .hbm, ⟨12, _⟩ => ⟨S8x49x128x64, .f32⟩
  | .hbm, ⟨13, _⟩ => ⟨S8x49x128x64, .f32⟩
  | _, _ => ⟨S8x49x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S8x49x128x128_S8x49x128_d3 : S8x49x128x128.ReducesTo [3] S8x49x128
  h_S_ : 0 < S_.numel
  transposes_S8x64x128_S8x128x64_0_2_1 : S8x64x128.Transposes [0, 2, 1] S8x128x64
  bcast_S_S8x128x64 : S_.BroadcastsInDim S8x128x64 (![] : Fin 0 → Fin S8x128x64.rank)
  bcast_S8x49x128_S8x49x128x1_0_1_2 : S8x49x128.BroadcastsInDim S8x49x128x1 (![0, 1, 2] : Fin 3 → Fin S8x49x128x1.rank)
  bcast_S8x128x64_S8x1x128x64_0_2_3 : S8x128x64.BroadcastsInDim S8x1x128x64 (![0, 2, 3] : Fin 3 → Fin S8x1x128x64.rank)
  bcast_S8x49x128x1_S8x49x128x64_0_1_2_3 : S8x49x128x1.BroadcastsInDim S8x49x128x64 (![0, 1, 2, 3] : Fin 4 → Fin S8x49x128x64.rank)
  bcast_S8x1x128x64_S8x49x128x64_0_1_2_3 : S8x1x128x64.BroadcastsInDim S8x49x128x64 (![0, 1, 2, 3] : Fin 4 → Fin S8x49x128x64.rank)

variable [Facts₀]

class Facts : Prop extends Facts₀ where

variable [Facts]
-- ==== Proof.Layout.lean ====
/-
  The kernel body's re-layings, each read at an index over the literal shapes of one batch's block:
  a [49·128, 64] matrix viewed [49, 128, 64] has at (v, h, f) the matrix's entry (128·v + h, f); a leading unit axis
  dropped or added changes no coordinate; the transpose of a [64, 128] matrix has at (h, f) the entry (f, h); a
  [1, 128, 64] array repeated along 49 views has at (v, h, f) its entry (0, h, f).
-/
import Idealize.ShloMosaic.Lib.Pipeline.Value
import Idealize.ShloMosaic.Lib.ValueIdx

noncomputable section

namespace Cert.DepthCue.Layout

open Idealize.ShloMosaic Idealize.ShloMosaic.ValueIdx

variable {α : Type}

/-- Row 128·v + h of a matrix with 49·128 rows. -/
abbrev row (v : Fin 49) (h : Fin 128) : Fin 6272 := ⟨v.val * 128 + h.val, by have := v.isLt; have := h.isLt; omega⟩

/-- [49·128, 64] viewed [49, 128, 64]: the entry (v, h, f) is the matrix's entry (128·v + h, f). -/
theorem splitRows_apply (y : (⟨2, ![6272, 64]⟩ : Shape).Idx → α)
    (hc : (⟨2, ![6272, 64]⟩ : Shape).ShapeCasts ⟨3, ![49, 128, 64]⟩) (v : Fin 49) (h : Fin 128) (f : Fin 64) :
    shapeCast ⟨3, ![49, 128, 64]⟩ y hc (ix3 v h f) = y (ix2 (row v h) f) := by
  refine shapeCast_apply y hc _ _ ?_
  rw [Shape.rowMajor_val_two, Shape.rowMajor_val_three]
  show (v.val * 128 + h.val) * 64 + f.val = (v.val * 128 + h.val) * 64 + f.val
  rfl

/-- [49, 128, 64] stored as the block [1, 49, 128, 64]: the entry (0, v, h, f) is the entry (v, h, f). -/
theorem addUnit4_apply (y : (⟨3, ![49, 128, 64]⟩ : Shape).Idx → α)
    (hc : (⟨3, ![49, 128, 64]⟩ : Shape).ShapeCasts ⟨4, ![1, 49, 128, 64]⟩) (z : Fin 1) (v : Fin 49) (h : Fin 128) (f : Fin 64) :
    shapeCast ⟨4, ![1, 49, 128, 64]⟩ y hc (ix4 z v h f) = y (ix3 v h f) := by
  refine shapeCast_apply y hc _ _ ?_
  rw [Shape.rowMajor_val_three, Shape.rowMajor_val_four]
  show (v.val * 128 + h.val) * 64 + f.val = (((z.val * 49 + v.val) * 128 + h.val) * 64 + f.val)
  have := z.isLt
  omega

/-- The block [1, R, C] viewed [R, C]: the entry (r, c) is the block's entry (0, r, c). -/
theorem dropUnit3_apply {R C : Nat} (y : (⟨3, ![1, R, C]⟩ : Shape).Idx → α)
    (hc : (⟨3, ![1, R, C]⟩ : Shape).ShapeCasts ⟨2, ![R, C]⟩) (r : Fin R) (c : Fin C) :
    shapeCast ⟨2, ![R, C]⟩ y hc (ix2 r c) = y (ix3 0 r c) := by
  refine shapeCast_apply y hc _ _ ?_
  rw [Shape.rowMajor_val_three, Shape.rowMajor_val_two]
  show ((0 * R + r.val) * C + c.val) = r.val * C + c.val
  rw [Nat.zero_mul, Nat.zero_add]

/-- [128, 64] viewed [1, 128, 64]: the entry (0, h, f) is the entry (h, f). -/
theorem addUnit3_apply (y : (⟨2, ![128, 64]⟩ : Shape).Idx → α)
    (hc : (⟨2, ![128, 64]⟩ : Shape).ShapeCasts ⟨3, ![1, 128, 64]⟩) (z : Fin 1) (h : Fin 128) (f : Fin 64) :
    shapeCast ⟨3, ![1, 128, 64]⟩ y hc (ix3 z h f) = y (ix2 h f) := by
  refine shapeCast_apply y hc _ _ ?_
  rw [Shape.rowMajor_val_three, Shape.rowMajor_val_two]
  show h.val * 64 + f.val = ((z.val * 128 + h.val) * 64 + f.val)
  have := z.isLt
  omega

/-- The transpose of a [64, 128] matrix: its entry (h, f) is the matrix's entry (f, h). -/
theorem transpose_apply' (y : (⟨2, ![64, 128]⟩ : Shape).Idx → α)
    (ht : (⟨2, ![64, 128]⟩ : Shape).Transposes [1, 0] ⟨2, ![128, 64]⟩) (h : Fin 128) (f : Fin 64) :
    transpose ⟨2, ![128, 64]⟩ [1, 0] y ht (ix2 h f) = y (ix2 f h) :=
  transpose_apply [1, 0] y ht _ _ (fun b => match b with
    | ⟨0, _⟩ => rfl
    | ⟨1, _⟩ => rfl)

/-- [1, 128, 64] repeated along the 49 views: the entry (v, h, f) is the entry (0, h, f). -/
theorem repeatViews_apply (y : (⟨3, ![1, 128, 64]⟩ : Shape).Idx → α)
    (hb : (⟨3, ![1, 128, 64]⟩ : Shape).Broadcasts ⟨3, ![49, 128, 64]⟩) (v : Fin 49) (h : Fin 128) (f : Fin 64) :
    broadcastTo ⟨3, ![49, 128, 64]⟩ y hb (ix3 v h f) = y (ix3 0 h f) :=
  broadcastTo_apply y hb _ _ (fun a => match a with
    | ⟨0, _⟩ => rfl
    | ⟨1, _⟩ => rfl
    | ⟨2, _⟩ => rfl)

end Cert.DepthCue.Layout

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Spec.lean ====
/-
  The depth cue of a light field, as ONE function of the argument arrays on the extended reals. For a batch b, an
  angular view v, a height h and a filter f the entry is

      (the sum over the width w of lfi[b, v, h, w])  +  128 · mask[b, f, h],

  128 being the width, carried as the f32 word 0x43000000 (both programs spell that same word, so it is never
  evaluated). Both programs compute this function: the reference by a sum along the width axis started from 0, the
  kernel by the product of the [49·128, 128] matrix of one batch's rows with the [128, 64] matrix of ones, whose
  entry (r, f) is the sum over w of row r's entries times 1.
-/
import Idealize.ShloMosaic.PureOps.Ideal
import Idealize.ShloMosaic.Lib.ValueIdx

noncomputable section

namespace Cert.DepthCue

open Idealize.ShloMosaic Idealize.ShloMosaic.ValueIdx

/-- The width sum of the light field at (b, v, h) plus 128 times the mask at (b, f, h), at every (b, v, h, f). -/
def depthCue (lfi : FVec Ideal ⟨4, ![8, 49, 128, 128]⟩ .f32) (mask : FVec Ideal ⟨3, ![8, 64, 128]⟩ .f32) :
    FVec Ideal ⟨4, ![8, 49, 128, 64]⟩ .f32 :=
  fun i => (∑ w : Fin 128, lfi (ix4 (i 0) (i 1) (i 2) w)) + Ideal.ofBits .f32 0x43000000#32 * mask (ix3 (i 0) (i 3) (i 2))

theorem depthCue_apply (lfi : FVec Ideal ⟨4, ![8, 49, 128, 128]⟩ .f32) (mask : FVec Ideal ⟨3, ![8, 64, 128]⟩ .f32)
    (b : Fin 8) (v : Fin 49) (h : Fin 128) (f : Fin 64) :
    depthCue lfi mask (ix4 b v h f)
      = (∑ w : Fin 128, lfi (ix4 b v h w)) + Ideal.ofBits .f32 0x43000000#32 * mask (ix3 b f h) := rfl

end Cert.DepthCue

end
-- ==== Proof.Payload.lean ====
/-
  What the kernel body stores for one batch, at an index. The block it writes is [1, 49, 128, 64]; its entry
  (0, v, h, f) is the sum of two terms.
  The first: the [49·128, 128] matrix of the batch's light-field rows (its bf16 reading is the same extended real)
  times the [128, 64] second operand, taken into the zero accumulator and viewed [49, 128, 64] — at (v, h, f) the sum
  over w of row 128·v + h's entry w times the second operand's entry (w, f).
  The second: 128 times the transpose of the batch's [64, 128] mask, repeated along the views — at (v, h, f) it is
  128 · mask(f, h).
-/
import proofs.«104568_j42992622633282_2_alg».proof.Proof.Gen.KernelIdeal.Skeleton
import proofs.«104568_j42992622633282_2_alg».proof.Proof.Layout
import proofs.«104568_j42992622633282_2_alg».proof.Proof.LibMatmulPlain
import proofs.«104568_j42992622633282_2_alg».proof.Proof.Spec

noncomputable section

namespace Cert.DepthCue.Payload

open Idealize.ShloMosaic Idealize.ShloMosaic.ValueIdx
open Cert.KernelIdeal Cert.KernelIdeal.Gen Cert.DepthCue Cert.DepthCue.Layout

/-- The matrix product's half: at (v, h, f), the sum over w of the light-field block's entry (0, 128·v + h, w) times
    the second operand's entry (w, f). -/
theorem product_apply (x0 : FVec Ideal S1x6272x128 .f32) (x1 : FVec Ideal S128x64 .bf16)
    (v : Fin 49) (h : Fin 128) (f : Fin 64) :
    shapeCast S49x128x64
        (matmul dot_S6272x128_S128x64_S6272x64_1_0_0_1_n_n none
          (truncf .bf16 (shapeCast S6272x128 x0 shapeCasts_S1x6272x128_S6272x128) bitsLt_bf16_f32)
          (shapeCast S128x64 x1 shapeCasts_S128x64_S128x64) (constant (F := Ideal) S6272x64 .f32 0x00000000#32))
        shapeCasts_S6272x64_S49x128x64 (ix3 v h f)
      = ∑ w : Fin 128, x0 (ix3 0 (row v h) w) * x1 (ix2 w f) := by
  refine (splitRows_apply _ _ v h f).trans ?_
  refine (Cert.LibMatmulPlain.matmul_zero_apply dot_S6272x128_S128x64_S6272x64_1_0_0_1_n_n_wf none _ _ (row v h) f).trans ?_
  refine Finset.sum_congr rfl fun w _ => ?_
  rw [shapeCast_self]
  exact congrArg (· * x1 (ix2 w f)) (dropUnit3_apply x0 _ (row v h) w)

/-- The mask's half: at (v, h, f), 128 times the mask block's entry (0, f, h). -/
theorem maskTerm_apply (x2 : FVec Ideal S1x64x128 .f32) (v : Fin 49) (h : Fin 128) (f : Fin 64) :
    broadcastTo S49x128x64
        (shapeCast S1x128x64
          (mulf (broadcast S128x64 (Scalar.ofBits (F := Ideal) .f32 0x43000000#32))
            (transpose S128x64 [1, 0] (shapeCast S64x128 x2 shapeCasts_S1x64x128_S64x128) transposes_S64x128_p1_0_S128x64))
          shapeCasts_S128x64_S1x128x64)
        broadcasts_S1x128x64_S49x128x64 (ix3 v h f)
      = Ideal.ofBits .f32 0x43000000#32 * x2 (ix3 0 f h) := by
  refine (repeatViews_apply _ _ v h f).trans ?_
  refine (addUnit3_apply _ _ 0 h f).trans ?_
  show Ideal.ofBits .f32 0x43000000#32 * _ = _
  refine congrArg (Ideal.ofBits .f32 0x43000000#32 * ·) ?_
  refine (transpose_apply' _ _ h f).trans ?_
  exact dropUnit3_apply x2 _ f h

/-- What the body stores at (0, v, h, f). -/
theorem stored_apply (x0 : FVec Ideal S1x6272x128 .f32) (x1 : FVec Ideal S128x64 .bf16) (x2 : FVec Ideal S1x64x128 .f32)
    (z : Fin 1) (v : Fin 49) (h : Fin 128) (f : Fin 64) :
    k0_pay1 x0 x1 x2 (ix4 z v h f)
      = (∑ w : Fin 128, x0 (ix3 0 (row v h) w) * x1 (ix2 w f)) + Ideal.ofBits .f32 0x43000000#32 * x2 (ix3 0 f h) := by
  unfold k0_pay1
  refine (addUnit4_apply _ _ z v h f).trans ?_
  exact congrArg₂ (· + ·) (product_apply x0 x1 v h f) (maskTerm_apply x2 v h f)

/-- The law that joins the two sides. When the first block holds batch b's light-field rows (row 128·v + h is the
    light field at (b, v, h)), the second operand is all ones, and the third block is batch b's mask, the stored block
    is batch b of the depth cue: each product x · 1 is x — on every extended real, the infinities included, so no
    finiteness is asked — and the sum over w is the width sum. -/
theorem stored_eq_depthCue (x0 : FVec Ideal S1x6272x128 .f32) (x1 : FVec Ideal S128x64 .bf16) (x2 : FVec Ideal S1x64x128 .f32)
    (lfi : FVec Ideal S8x49x128x128 .f32) (mask : FVec Ideal S8x64x128 .f32) (b : Fin 8)
    (h0 : ∀ (v : Fin 49) (h : Fin 128) (w : Fin 128), x0 (ix3 0 (row v h) w) = lfi (ix4 b v h w))
    (h1 : ∀ (w : Fin 128) (f : Fin 64), x1 (ix2 w f) = 1)
    (h2 : ∀ (f : Fin 64) (h : Fin 128), x2 (ix3 0 f h) = mask (ix3 b f h))
    (j : S1x49x128x64.Idx) :
    k0_pay1 x0 x1 x2 j = depthCue lfi mask (ix4 b (j 1) (j 2) (j 3)) := by
  obtain ⟨z, v, h, f, rfl⟩ : ∃ (z : Fin 1) (v : Fin 49) (h : Fin 128) (f : Fin 64), j = ix4 z v h f :=
    ⟨j 0, j 1, j 2, j 3, eq_ix4 j⟩
  rw [stored_apply, h2]
  show _ = depthCue lfi mask (ix4 b v h f)
  rw [depthCue_apply]
  refine congrArg (· + Ideal.ofBits .f32 0x43000000#32 * mask (ix3 b f h)) (Finset.sum_congr rfl fun w _ => ?_)
  rw [h0, h1, mul_one]

end Cert.DepthCue.Payload

end
-- ==== Proof.Kernel.lean ====
/-
  The kernel's result array is the depth cue of its first and third arguments.
  The grid has one point per batch. At point b the body reads block b of the light field with views and heights
  merged ([8, 49·128, 128], the first argument re-laid row-major: row 128·v + h of batch b is the light field at
  (b, v, h)), the whole [128, 64] matrix of ones (the bf16 word 0x3F80 is the extended real 1), and block b of the
  mask; it writes block b of the result. So what point b writes back is block b of the depth cue, the eight blocks
  cover the result array, and the array ends holding the depth cue.
-/
import proofs.«104568_j42992622633282_2_alg».proof.Proof.Gen.KernelIdeal.Value
import proofs.«104568_j42992622633282_2_alg».proof.Proof.Payload
import Idealize.ShloMosaic.Lib.Pipeline.Value
import Idealize.ShloMosaic.Lib.StableHlo.Run
import Idealize.ShloMosaic.PureOps.IdealRules

noncomputable section

namespace Cert.DepthCue.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.DepthCue Cert.DepthCue.Layout

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## The arrays the region finds -/

/-- The first window's array is the light field re-laid to [8, 49·128, 128]. -/
theorem rows_eq (c : Dev nD) :
    (V m c main_v0 : FVec Ideal S8x6272x128 .f32)
      = shapeCast S8x6272x128 (m ((c : Thread nD τ).loc main_arg0)) shapeCasts_S8x49x128x128_S8x6272x128 := by
  dsimp only [V, hostOps0]; after_results; rfl

/-- Its entry (b, 128·v + h, w) is the light field at (b, v, h, w): the two have one row-major position. -/
theorem rows_apply (c : Dev nD) (b : Fin 8) (v : Fin 49) (h : Fin 128) (w : Fin 128) :
    (V m c main_v0 : FVec Ideal S8x6272x128 .f32) (ix3 b (row v h) w)
      = (m ((c : Thread nD τ).loc main_arg0) : FVec Ideal S8x49x128x128 .f32) (ix4 b v h w) := by
  rw [rows_eq]
  refine shapeCast_apply _ _ _ _ ?_
  show ((⟨4, ![8, 49, 128, 128]⟩ : Shape).rowMajor (ix4 b v h w)).val
    = ((⟨3, ![8, 6272, 128]⟩ : Shape).rowMajor (ix3 b (row v h) w)).val
  rw [Shape.rowMajor_val_four, Shape.rowMajor_val_three]
  show ((b.val * 49 + v.val) * 128 + h.val) * 128 + w.val = (b.val * 6272 + (v.val * 128 + h.val)) * 128 + w.val
  omega

/-- The second window's array is the bf16 one, everywhere. -/
theorem ones_eq (c : Dev nD) :
    (V m c main_v1 : FVec Ideal S128x64 .bf16)
      = broadcastInDim S128x64 ![] bcast_S_S128x64 (constant (F := Ideal) S_ .bf16 0x3F80#16) := by
  dsimp only [V, hostOps0]; after_results

theorem ones_apply (c : Dev nD) (i : S128x64.Idx) : (V m c main_v1 : FVec Ideal S128x64 .bf16) i = (1 : EReal) := by
  rw [ones_eq]
  show Ideal.ofBits .bf16 0x3F80#16 = (1 : EReal)
  exact IdealRules.sign_bit.ideal_onePat .bf16

/-! ## The index maps, decided over the eight points -/

/-- Point t reads block t of the light field's rows, the whole matrix of ones and block t of the mask, and writes
    block t of the result. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

theorem point_lt (t : Fin cfg0.N) : t.val < 8 := lt_of_lt_of_eq t.isLt N_0

/-! ## The input blocks at a point -/

/-- The first block at point t: its row 128·v + h is the light field at (t, v, h). -/
theorem lfiBlock_apply (c : Dev nD) (t : Fin cfg0.N) (v : Fin 49) (h : Fin 128) (w : Fin 128) :
    (iblk m c 0 t : FVec Ideal S1x6272x128 .f32) (ix3 0 (row v h) w)
      = (m ((c : Thread nD τ).loc main_arg0) : FVec Ideal S8x49x128x128 .f32) (ix4 ⟨t.val, point_lt t⟩ v h w) := by
  obtain ⟨e0, e1, e2, -⟩ := index_facts t
  unfold iblk
  rw [View.read_apply]
  show V m c main_v0 _ = _
  refine Eq.trans (congrArg (V m c main_v0) ?_) (rows_apply m c ⟨t.val, point_lt t⟩ v h w)
  funext a
  apply Fin.ext
  match a with
  | ⟨0, _⟩ => show win0_0.index t (0 : Fin 3) * 1 + 1 * 0 = t.val; omega
  | ⟨1, _⟩ => show win0_0.index t (1 : Fin 3) * 6272 + 1 * (v.val * 128 + h.val) = v.val * 128 + h.val; omega
  | ⟨2, _⟩ => show win0_0.index t (2 : Fin 3) * 128 + 1 * w.val = w.val; omega

/-- The second block, at every point, is all ones. -/
theorem onesBlock_apply (c : Dev nD) (t : Fin cfg0.N) (i : S128x64.Idx) :
    (iblk m c 1 t : FVec Ideal S128x64 .bf16) i = (1 : EReal) := by
  unfold iblk
  rw [View.read_apply]
  exact ones_apply m c _

/-- The third block at point t is the mask of batch t. -/
theorem maskBlock_apply (c : Dev nD) (t : Fin cfg0.N) (f : Fin 64) (h : Fin 128) :
    (iblk m c 2 t : FVec Ideal S1x64x128 .f32) (ix3 0 f h)
      = (m ((c : Thread nD τ).loc main_arg2) : FVec Ideal S8x64x128 .f32) (ix3 ⟨t.val, point_lt t⟩ f h) := by
  obtain ⟨-, -, -, -, -, e0, e1, e2, -⟩ := index_facts t
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t (0 : Fin 3) * 1 + 1 * 0 = t.val; omega
  | ⟨1, _⟩ => show win0_2.index t (1 : Fin 3) * 64 + 1 * f.val = f.val; omega
  | ⟨2, _⟩ => show win0_2.index t (2 : Fin 3) * 128 + 1 * h.val = h.val; omega

/-! ## What a point writes back, the cover, the array -/

/-- What point t writes back is block t of the depth cue of the first and third arguments. -/
theorem flushed_eq (c : Dev nD) (t : Fin cfg0.N) :
    (dats m 0 c).flushed 3 t
      = ((cfg0.win 3).blk t).view.read (Elt Ideal)
          (depthCue (m ((c : Thread nD τ).loc main_arg0)) (m ((c : Thread nD τ).loc main_arg2))) := by
  rw [flushed3]
  unfold out0_3
  rw [View.canon_unit_zero zero4]
  simp only [View.ld_unit_zero (S := S1x6272x128) zero3, View.ld_unit_zero (S := S128x64) zero2,
    View.ld_unit_zero (S := S1x64x128) zero3]
  obtain ⟨-, -, -, -, -, -, -, -, e0, e1, e2, e3⟩ := index_facts t
  funext j
  show k0_pay1 (iblk m c 0 t) (iblk m c 1 t) (iblk m c 2 t) j
    = depthCue (m ((c : Thread nD τ).loc main_arg0)) (m ((c : Thread nD τ).loc main_arg2)) (((cfg0.win 3).blk t).view.emb j)
  refine (Payload.stored_eq_depthCue (iblk m c 0 t) (iblk m c 1 t) (iblk m c 2 t)
    (m ((c : Thread nD τ).loc main_arg0)) (m ((c : Thread nD τ).loc main_arg2)) ⟨t.val, point_lt t⟩
    (fun v h w => lfiBlock_apply m c t v h w) (fun w f => onesBlock_apply m c t (ix2 w f))
    (fun f h => maskBlock_apply m c t f h) j).trans ?_
  refine congrArg (depthCue (m ((c : Thread nD τ).loc main_arg0)) (m ((c : Thread nD τ).loc main_arg2))) ?_
  funext a
  apply Fin.ext
  have hj0 : (j 0).val < 1 := (j 0).isLt
  match a with
  | ⟨0, _⟩ => show t.val = win0_3.index t (0 : Fin 4) * 1 + 1 * (j 0).val; omega
  | ⟨1, _⟩ => show (j 1).val = win0_3.index t (1 : Fin 4) * 49 + 1 * (j 1).val; omega
  | ⟨2, _⟩ => show (j 2).val = win0_3.index t (2 : Fin 4) * 128 + 1 * (j 2).val; omega
  | ⟨3, _⟩ => show (j 3).val = win0_3.index t (3 : Fin 4) * 64 + 1 * (j 3).val; omega

/-- An index of the result array is in point t's block iff each coordinate is in the block's range on its axis. -/
theorem mem_blk (t : Fin cfg0.N) (i : S8x49x128x64.Idx) :
    i ∈ ((cfg0.win 3).blk t).view.set ↔ ∀ a : Fin 4, win0_3.index t a * S1x49x128x64.size a ≤ (i a).val
      ∧ (i a).val < win0_3.index t a * S1x49x128x64.size a + S1x49x128x64.size a := by
  show i ∈ ((View.whole main_v2).slice (win0_3.rect t)).set ↔ _
  rw [View.set_slice_whole, Rect.mem_set_unit]
  exact Iff.rfl

/-- Every index (b, v, h, f) of the result array is in the block of the point b. -/
theorem cover (i : S8x49x128x64.Idx) :
    ∃ t : Fin cfg0.N, (cfg0.win 3).flush t = true ∧ i ∈ ((cfg0.win 3).blk t).view.set := by
  have hi0 : (i 0).val < 8 := (i 0).isLt
  have hi1 : (i 1).val < 49 := (i 1).isLt
  have hi2 : (i 2).val < 128 := (i 2).isLt
  have hi3 : (i 3).val < 64 := (i 3).isLt
  let t : Fin cfg0.N := ⟨(i 0).val, lt_of_lt_of_eq hi0 N_0.symm⟩
  obtain ⟨-, -, -, -, -, -, -, -, e0, e1, e2, e3⟩ := index_facts t
  have et : t.val = (i 0).val := rfl
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 49 ≤ (i 1).val ∧ (i 1).val < win0_3.index t (1 : Fin 4) * 49 + 49; omega
  | ⟨2, _⟩ => show win0_3.index t (2 : Fin 4) * 128 ≤ (i 2).val ∧ (i 2).val < win0_3.index t (2 : Fin 4) * 128 + 128; omega
  | ⟨3, _⟩ => show win0_3.index t (3 : Fin 4) * 64 ≤ (i 3).val ∧ (i 3).val < win0_3.index t (3 : Fin 4) * 64 + 64; omega

/-- The result array after the run is the depth cue of the first and third arguments. -/
theorem final (c : Dev nD) :
    (dats m 0 c).arrAt 3 cfg0.N
      = depthCue (m ((c : Thread nD τ).loc main_arg0)) (m ((c : Thread nD τ).loc main_arg2)) :=
  (dats m 0 c).arrAt_eq_of_cover 3 _ (fun t _ => flushed_eq m c t) cover

/-- The kernel's run, read: the result at the depth cue of the arguments, the arguments unchanged. -/
theorem run : θ_run defs (onTc (τ := τ) (main (F := Ideal))) ⟨m, fun _ => 0, ρ⟩ fun r => ∀ c : Dev nD,
      r.2.mem ((c : Thread nD τ).loc main_v2)
        = depthCue (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.DepthCue.Kernel

end
-- ==== Proof.Reference.lean ====
/-
  The reference is the depth cue. Read one operation at a time: its result at (b, v, h, f) is the sum along the width
  axis of the light field at (b, v, h), started from the f32 zero, broadcast along the filters, plus the product of
  128 with the transposed mask at (b, h, f), broadcast along the views. The zero the sum starts from is the extended
  real 0, and the mask's transpose read at (b, h, f) is the mask at (b, f, h).
-/
import proofs.«104568_j42992622633282_2_alg».proof.Proof.Gen.ReferenceIdeal.Read
import proofs.«104568_j42992622633282_2_alg».proof.Proof.Spec

noncomputable section

namespace Cert.DepthCue.Reference

open Idealize.ShloMosaic Idealize.ShloMosaic.ValueIdx
open Cert.ReferenceIdeal Cert.ReferenceIdeal.Read

/-- The reference's last stage, at the extended reals, is the depth cue of its first and third arguments. -/
theorem result_eq (lfi : FVec Ideal S8x49x128x128 .f32) (mask : FVec Ideal S8x64x128 .f32) :
    val_main_v8 (F := Ideal) lfi mask = depthCue lfi mask := by
  funext i
  have e0 : ∀ w : Fin 128, idx_main_v0 (idx_main_v4 (idx_main_v6 i)) w = ix4 (i 0) (i 1) (i 2) w := fun w =>
    funext fun a => Fin.ext (by match a with | ⟨0, _⟩ => rfl | ⟨1, _⟩ => rfl | ⟨2, _⟩ => rfl | ⟨3, _⟩ => rfl)
  have e1 : idx_main_v1 (idx_main_v5 (idx_main_v7 i)) = ix3 (i 0) (i 3) (i 2) :=
    funext fun a => Fin.ext (by match a with | ⟨0, _⟩ => rfl | ⟨1, _⟩ => rfl | ⟨2, _⟩ => rfl)
  rw [val_main_v8_apply, val_main_v6_apply, val_main_v4_apply, val_main_v0_apply, val_main_v7_apply,
    val_main_v5_apply, val_main_v3_apply, val_main_v2_apply, val_main_v1_apply, val_main_cst_0_apply,
    val_main_cst_apply]
  simp only [e0, e1, Ideal.addf_def, Ideal.mulf_def, Ideal.ofBits_def, Ideal.ofBits_zero_f32, zero_add]
  rfl

end Cert.DepthCue.Reference

end
-- ==== Proof.lean ====
/-
  The depth cue of a light field: for a batch b, a view v, a height h and a filter f,

      out[b, v, h, f] = (the sum over the width w of lfi[b, v, h, w]) + 128 · h_mask[b, f, h].

  The reference computes it as written: a sum along the width axis started from zero, the mask transposed and scaled
  by 128, the two broadcast against each other and added. The kernel, one grid point per batch, merges views and
  heights into 49·128 rows, multiplies the [49·128, 128] matrix of rows by a [128, 64] matrix of ones — the entry
  (r, f) of that product, taken into a zero accumulator, is the sum over w of row r's entries times 1 —, views the
  product as [49, 128, 64] and adds 128 times the batch's transposed mask, repeated along the views. On the extended
  reals a change of float format is the identity, a sum started from zero is the sum, and x · 1 = x for every x,
  infinite or not; so the two results are one function of the arguments (Proof/Spec.lean) and the precondition is
  never used. The second argument (f_maps) is read by neither program.

  The frames of the two kernel programs and the runs of both sides are the generated modules'; written by hand are
  the specification, the reading of the reference's stages as the specification (Proof/Reference.lean), the body's
  stored value at an index (Proof/Layout.lean, Proof/Payload.lean, over the matrix product read at an entry in
  Proof/LibMatmulPlain.lean), and the passage from the eight written blocks to the whole array (Proof/Kernel.lean).
-/
import proofs.«104568_j42992622633282_2_alg».proof.Defs
import proofs.«104568_j42992622633282_2_alg».proof.Proof.Gen.Kernel
import proofs.«104568_j42992622633282_2_alg».proof.Proof.Gen.Kernel.Skeleton
import proofs.«104568_j42992622633282_2_alg».proof.Proof.Gen.Kernel.Launch
import proofs.«104568_j42992622633282_2_alg».proof.Proof.Gen.Kernel.Points
import proofs.«104568_j42992622633282_2_alg».proof.Proof.Gen.Kernel.Frame
import proofs.«104568_j42992622633282_2_alg».proof.Proof.Gen.KernelIdeal
import proofs.«104568_j42992622633282_2_alg».proof.Proof.Gen.KernelIdeal.Skeleton
import proofs.«104568_j42992622633282_2_alg».proof.Proof.Gen.KernelIdeal.Launch
import proofs.«104568_j42992622633282_2_alg».proof.Proof.Gen.KernelIdeal.Points
import proofs.«104568_j42992622633282_2_alg».proof.Proof.Gen.KernelIdeal.Frame
import proofs.«104568_j42992622633282_2_alg».proof.Proof.Gen.ReferenceIdeal
import proofs.«104568_j42992622633282_2_alg».proof.Proof.Gen.Pre_finite_inputs
import proofs.«104568_j42992622633282_2_alg».proof.Proof.Gen.KernelIdeal.Value
import proofs.«104568_j42992622633282_2_alg».proof.Proof.Gen.ReferenceIdeal.Run
import proofs.«104568_j42992622633282_2_alg».proof.Proof.Gen.ReferenceIdeal.Read
import proofs.«104568_j42992622633282_2_alg».proof.Proof.Kernel
import proofs.«104568_j42992622633282_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the arguments, both programs end with the depth cue of the first and third
    arguments in their result arrays. -/
theorem algebraic : Cert.algebraic_KernelIdeal_ReferenceIdeal := by
  intro m ρ m' ρ' _ hagree
  refine ⟨_, Cert.DepthCue.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.DepthCue.Reference.result_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
